-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x127 : S_.BroadcastsInDim S128x127 (![] : Fin 0 → Fin S128x127.rank)
  reducesTo_S128x127_S_d0_1 : S128x127.ReducesTo [0, 1] S_
  bcast_S_S127 : S_.BroadcastsInDim S127 (![] : Fin 0 → Fin S127.rank)
  reducesTo_S127_S_d0 : S127.ReducesTo [0] S_

variable [Facts]

def fn_part1 {F : FTy → Type} [FloatOps F] (main_v13 : IVec S_ 1) (main_v16 : IVec S127 1) : IVec S_ 1 :=
  let main_c_5 : IVec S_ 1 := constantI S_ 1 1#1
  let main_v17 : IVec S_ 1 := (fun x v => Host.reduce IntOp.andi x v reducesTo_S127_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x127 .f32) (main_arg3 : FVec F S127 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x127 .f32 := Host.absf main_arg2
  let main_cst_2 : FVec F S_ .f32 := constant S_ .f32 0x7F800000#32
  let main_v10 : FVec F S128x127 .f32 := broadcastInDim S128x127 ![] bcast_S_S128x127 main_cst_2
  let main_v11 : IVec S128x127 1 := cmpf .olt main_v9 main_v10
  let main_c_3 : IVec S_ 1 := constantI S_ 1 1#1
  let main_v12 : IVec S_ 1 := (fun x v => Host.reduce IntOp.andi x v reducesTo_S128x127_S_d0_1 h_S_) main_v11 main_c_3
  let main_v13 : IVec S_ 1 := andi main_v8 main_v12
  let main_v14 : FVec F S127 .f32 := Host.absf main_arg3
  let main_cst_4 : FVec F S_ .f32 := constant S_ .f32 0x7F800000#32
  let main_v15 : FVec F S127 .f32 := broadcastInDim S127 ![] bcast_S_S127 main_cst_4
  let main_v16 : IVec S127 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S_ : Shape := ⟨0, ![]⟩
abbrev S128x128 : Shape := ⟨2, ![128, 128]⟩
abbrev S128 : Shape := ⟨1, ![128]⟩
abbrev S1x128 : Shape := ⟨2, ![1, 128]⟩
abbrev S10000x127 : Shape := ⟨2, ![10000, 127]⟩
abbrev S400x10000 : Shape := ⟨2, ![400, 10000]⟩
abbrev S400x127 : Shape := ⟨2, ![400, 127]⟩
abbrev S400x128 : Shape := ⟨2, ![400, 128]⟩

abbrev nBuf : Space → Nat
  | .hbm => 13
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x127, .f32⟩
  | .hbm, ⟨3, _⟩ => ⟨S127, .f32⟩
  | .hbm, ⟨4, _⟩ => ⟨S_, .i32⟩
  | .hbm, ⟨5, _⟩ => ⟨S_, .f32⟩
  | .hbm, ⟨6, _⟩ => ⟨S128x128, .f32⟩
  | .hbm, ⟨7, _⟩ => ⟨S128x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S10000x127, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .bf16⟩
  | .local _ .vmem, ⟨4, _⟩ => ⟨S1x128, .f32⟩
  | .local _ .vmem, ⟨5, _⟩ => ⟨S400x127, .f32⟩
  | .local _ .vmem, ⟨6, _⟩ => ⟨S400x127, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v17 : BitVec 32 := Scalar.muli arg0 c400_i32
  let v18 : Index := Scalar.indexCast v17
  let c0_10 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x127 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S128x127_S128x128_000_010 : S128x127.Pads (![0, 0] : Fin 2 → Nat) ![0, 1] ![0, 0] S128x128
  h_S_ : 0 < S_.numel
  bitsLt_bf16_f32 : FTy.bits .bf16 < FTy.bits .f32
  pads_S127_S128_010 : S127.Pads (![0] : Fin 1 → Nat) ![1] ![0] S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  slices_S400x128_o0_0_S400x127 : S400x128.Slices ![0, 0] S400x127
  inb_S400x127_S400x127_0_0 : ∀ a, (![0, 0] : Fin 2 → Nat) a + S400x127.size a ≤ S400x127.size a
  h_S400x127 : 0 < S400x127.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x127.size a ≤ S10000x127.size a
  hwx0_4 : ∀ i : grid0.Coords, EltTy.bits .f32 = 32 ∨ (Rect.block (s := S10000x127) S400x127.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S400x127.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x127 : Shape := ⟨2, ![128, 127]⟩
abbrev S127 : Shape := ⟨1, ![127]⟩
abbrev S10000x127 : Shape := ⟨2, ![10000, 127]⟩
abbrev S1x127 : Shape := ⟨2, ![1, 127]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x127, .f32⟩
  | .hbm, ⟨3, _⟩ => ⟨S127, .f32⟩
  | .hbm, ⟨4, _⟩ => ⟨S10000x127, .f32⟩
  | .hbm, ⟨5, _⟩ => ⟨S10000x127, .f32⟩
  | .hbm, ⟨6, _⟩ => ⟨S1x127, .f32⟩
  | .hbm, ⟨7, _⟩ => ⟨S10000x127, .f32⟩
  | .hbm, ⟨8, _⟩ => ⟨S10000x127, .f32⟩
  | .hbm, ⟨9, _⟩ => ⟨S_, .f32⟩
  | .hbm, ⟨10, _⟩ => ⟨S10000x127, .f32⟩
  | .hbm, ⟨11, _⟩ => ⟨S10000x127, .f32⟩
  | .hbm, ⟨12, _⟩ => ⟨S10000x127, .f32⟩
  | .hbm, ⟨13, _⟩ => ⟨S10000x127, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S127_S1x127_1 : S127.BroadcastsInDim S1x127 (![1] : Fin 1 → Fin S1x127.rank)
  bcast_S1x127_S10000x127_0_1 : S1x127.BroadcastsInDim S10000x127 (![0, 1] : Fin 2 → Fin S10000x127.rank)
  bcast_S_S10000x127 : S_.BroadcastsInDim S10000x127 (![] : Fin 0 → Fin S10000x127.rank)
  slices_S10000x128_S10000x127_0_0 : S10000x128.Slices ![0, 0] S10000x127
  dot_S10000x128_S128x127_S10000x127_1_0_0_1_n_n_wf : DotDims.WF S10000x128 S128x127 S10000x127 [1] [0] [0] [1] [] []
  dot_S10000x10000_S10000x127_S10000x127_1_0_0_1_n_n_wf : DotDims.WF S10000x10000 S10000x127 S10000x127 [1] [0] [0] [1] [] []

variable [Facts₀]

def dot_S10000x128_S128x127_S10000x127_1_0_0_1_n_n : DotDims S10000x128 S128x127 S10000x127 where
  lhsContracting := [1]
  rhsContracting := [0]
  lhsNonContracting := [0]
  rhsNonContracting := [1]
  lhsBatch := []
  rhsBatch := []
  wf := dot_S10000x128_S128x127_S10000x127_1_0_0_1_n_n_wf
def dot_S10000x10000_S10000x127_S10000x127_1_0_0_1_n_n : DotDims S10000x10000 S10000x127 S10000x127 where
  lhsContracting := [1]
  rhsContracting := [0]
  lhsNonContracting := [0]
  rhsNonContracting := [1]
  lhsBatch := []
  rhsBatch := []
  wf := dot_S10000x10000_S10000x127_S10000x127_1_0_0_1_n_n_wf

class Facts : Prop extends Facts₀ where

variable [Facts]
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«165720_g781684048050_cont_9to1c4b_217_11_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  From the precondition to real entries.

  The precondition tests every entry e of the four inputs by |e| < +∞ — the comparison's one-bit answer —, folds each
  input's answers with "and" from the bit 1, and joins the four folds with "and". If the result is the bit 1 then each
  fold is 1, a fold by "and" that ends at 1 met only 1s, and an extended real whose absolute value is below +∞ is a
  real number. So under the precondition every entry of x, adj, W and b is a real number.
-/
import proofs.«165720_g781684048050_cont_9to1c4b_217_11_alg».proof.Pre_finite_inputs
import proofs.«165720_g781684048050_cont_9to1c4b_217_11_alg».proof.Proof.LibFiniteEntry
import Idealize.ShloMosaic.Lib.ReduceAll
import Idealize.ShloMosaic.Lib.ValueIdx
import Idealize.ShloMosaic.PureOps.Ideal.Laws

noncomputable section

namespace Cert.FiniteInputs

open Idealize.ShloMosaic Cert.LibRealArith Cert.LibFiniteEntry Cert.Pre_finite_inputs

variable [Cert.Pre_finite_inputs.Facts]

/-- A rank-0 array has one index. -/
instance : Subsingleton S_.Idx := ⟨fun a b => funext fun d => d.elim0⟩

/-- Under the precondition, read at the ideal values, every entry of the four inputs is a real number. -/
theorem allReal_of_pre (x : FVec Ideal S10000x128 .f32) (adj : FVec Ideal S10000x10000 .f32)
    (W : FVec Ideal S128x127 .f32) (b : FVec Ideal S127 .f32)
    (h : fn (F := Ideal) x adj W b = fun _ => 1#1) : AllReal x ∧ AllReal adj ∧ AllReal W ∧ AllReal b := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact isReal_of_cmp (x i) (Host.reduce_andi_all _ _ _ _ _ h1 i)
  · exact isReal_of_cmp (adj i) (Host.reduce_andi_all _ _ _ _ _ h2 i)
  · exact isReal_of_cmp (W i) (Host.reduce_andi_all _ _ _ _ _ h3 i)
  · exact isReal_of_cmp (b i) (Host.reduce_andi_all _ _ _ _ _ h4 i)

end Cert.FiniteInputs

end
-- ==== Proof.Algebra.lean ====
/-
  The one law that joins the two programs.

  A graph-convolution layer multiplies three matrices: the row a = adj[r, ·] of the adjacency (indexed by the
  nodes l), the features X = x[l, k], and one column w = W[·, q] of the weights (indexed by the input features k).
  One program contracts the nodes first and the features second, Σ_k (Σ_l a_l · X_lk) · w_k; the other contracts the
  features first and the nodes second, Σ_l a_l · (Σ_k X_lk · w_k). For real numbers both are the double sum
  Σ_l Σ_k a_l · X_lk · w_k: distribute each product over the inner sum and exchange the two finite sums.

  On the extended reals distributivity fails at the infinities (+∞ · (1 + (−1)) = 0 but +∞ · 1 + +∞ · (−1) = −∞), so the
  law is stated for real entries: every entry is the image of a real number, the coercion commutes with products and with
  finite sums, and the identity is the one of real numbers.
-/
import Mathlib
import proofs.«165720_g781684048050_cont_9to1c4b_217_11_alg».proof.Proof.LibRealArith

noncomputable section

namespace Cert.GcnAlgebra

open Cert.LibRealArith

/-- Over the reals: contracting the first index and then the second is contracting the second and then the first. -/
theorem real_assoc {L K : Type*} [Fintype L] [Fintype K] (a : L → ℝ) (X : L → K → ℝ) (w : K → ℝ) :
    ∑ k, (∑ l, a l * X l k) * w k = ∑ l, a l * ∑ k, X l k * w k := by
  simp only [Finset.sum_mul, Finset.mul_sum]
  rw [Finset.sum_comm]
  exact Finset.sum_congr rfl fun l _ => Finset.sum_congr rfl fun k _ => by ring

/-- On the extended reals, for real entries: (a · X) · w = a · (X · w). -/
theorem assoc_of_real {L K : Type*} [Fintype L] [Fintype K] (a : L → EReal) (X : L → K → EReal) (w : K → EReal)
    (ha : ∀ l, IsReal (a l)) (hX : ∀ l k, IsReal (X l k)) (hw : ∀ k, IsReal (w k)) :
    ∑ k, (∑ l, a l * X l k) * w k = ∑ l, a l * ∑ k, X l k * w k := by
  choose a' ha' using ha
  choose X' hX' using hX
  choose w' hw' using hw
  simp only [ha', hX', hw', ← EReal.coe_mul, sum_coe]
  exact congrArg _ (real_assoc a' X' w')

end Cert.GcnAlgebra

end
-- ==== Proof.Spec.lean ====
/-
  The graph-convolution layer, entry by entry.

  For features x (10000 nodes × 128), a dense adjacency adj (10000 × 10000), weights W (128 × 127) and a bias b (127),
  the layer's entry at node r and output feature q is

      max ( Σ_l adj[r, l] · ( Σ_k x[l, k] · W[k, q] ) + b[q] , 0 ) + x[r, q]

  (`layerAt`: project the features first, then aggregate over the neighbours; the last term is the residual, x without its
  last column). Aggregating first and projecting second,

      max ( Σ_k ( Σ_l adj[r, l] · x[l, k] ) · W[k, q] + b[q] , 0 ) + x[r, q]

  (`layerAt'`) is the same number when the entries of adj, x and W are real: the two double sums agree by the associativity
  of the matrix product, and everything around them is applied to equal arguments. The zero is kept as the binary32 word
  of +0.0, the same word in both.
-/
import Mathlib
import Idealize.ShloMosaic.PureOps.Ideal
import Idealize.ShloMosaic.Lib.ValueIdx
import proofs.«165720_g781684048050_cont_9to1c4b_217_11_alg».proof.Proof.LibRealArith
import proofs.«165720_g781684048050_cont_9to1c4b_217_11_alg».proof.Proof.Algebra

noncomputable section

namespace Cert.GcnSpec

open Idealize.ShloMosaic Idealize.ShloMosaic.ValueIdx Cert.LibRealArith

/-- The arrays' shapes: features, adjacency, weights, bias, result. -/
abbrev SX : Shape := ⟨2, ![10000, 128]⟩
abbrev SA : Shape := ⟨2, ![10000, 10000]⟩
abbrev SW : Shape := ⟨2, ![128, 127]⟩
abbrev SB : Shape := ⟨1, ![127]⟩
abbrev SO : Shape := ⟨2, ![10000, 127]⟩

/-- The layer at node `r`, output feature `q`: features projected first, then aggregated over the neighbours. -/
def layerAt (x : SX.Idx → EReal) (adj : SA.Idx → EReal) (W : SW.Idx → EReal) (b : SB.Idx → EReal)
    (r : Fin 10000) (q : Fin 127) : EReal :=
  max ((∑ l : Fin 10000, adj (ix2 r l) * ∑ k : Fin 128, x (ix2 l k) * W (ix2 k q)) + b (ix1 q))
      (Ideal.ofBits .f32 0x00000000#32)
    + x (ix2 r q.castSucc)

/-- The same with the neighbours aggregated first and the features projected second. -/
def layerAt' (x : SX.Idx → EReal) (adj : SA.Idx → EReal) (W : SW.Idx → EReal) (b : SB.Idx → EReal)
    (r : Fin 10000) (q : Fin 127) : EReal :=
  max ((∑ k : Fin 128, (∑ l : Fin 10000, adj (ix2 r l) * x (ix2 l k)) * W (ix2 k q)) + b (ix1 q))
      (Ideal.ofBits .f32 0x00000000#32)
    + x (ix2 r q.castSucc)

/-- For real entries the two orders give the same entry. -/
theorem layerAt'_eq {x : SX.Idx → EReal} {adj : SA.Idx → EReal} {W : SW.Idx → EReal} (b : SB.Idx → EReal)
    (hx : AllReal x) (hadj : AllReal adj) (hW : AllReal W) (r : Fin 10000) (q : Fin 127) :
    layerAt' x adj W b r q = layerAt x adj W b r q := by
  unfold layerAt' layerAt
  rw [Cert.GcnAlgebra.assoc_of_real (fun l : Fin 10000 => adj (ix2 r l)) (fun (l : Fin 10000) (k : Fin 128) => x (ix2 l k))
    (fun k : Fin 128 => W (ix2 k q)) (fun l => hadj _) (fun l k => hx _) (fun k => hW _)]

/-- The whole result array. -/
def layer (x : SX.Idx → EReal) (adj : SA.Idx → EReal) (W : SW.Idx → EReal) (b : SB.Idx → EReal) : SO.Idx → EReal :=
  fun i => layerAt x adj W b ⟨(i 0).val, (i 0).isLt⟩ ⟨(i 1).val, (i 1).isLt⟩

theorem layer_ix2 (x : SX.Idx → EReal) (adj : SA.Idx → EReal) (W : SW.Idx → EReal) (b : SB.Idx → EReal)
    (r : Fin 10000) (q : Fin 127) : layer x adj W b (ix2 r q) = layerAt x adj W b r q := rfl

end Cert.GcnSpec

end
-- ==== Proof.RefEntry.lean ====
/-
  The reference computes the layer.

  Read one operation at a time at an index: the two matrix products are sums over their contracted axes — first
  x · W over the 128 input features, then adj · (x · W) over the 10000 nodes —, the bias is laid as a row and repeated
  down the rows, the maximum is taken against a zero repeated over the array, and the residual is x without its last
  column. Composed at (r, q) this is the layer's entry, features projected first.
-/
import proofs.«165720_g781684048050_cont_9to1c4b_217_11_alg».proof.Proof.Gen.ReferenceIdeal.Read
import proofs.«165720_g781684048050_cont_9to1c4b_217_11_alg».proof.Proof.Spec

noncomputable section

namespace Cert.ReferenceIdeal.Entry

open Cert.ReferenceIdeal Cert.ReferenceIdeal.Read Idealize.ShloMosaic Idealize.ShloMosaic.ValueIdx Cert.GcnSpec

/-- The reference's result at (r, q) is the layer's entry. -/
theorem ref_apply (x : (⟨S10000x128, .f32⟩ : BufTy).Contents (Elt Ideal)) (adj : (⟨S10000x10000, .f32⟩ : BufTy).Contents (Elt Ideal))
    (W : (⟨S128x127, .f32⟩ : BufTy).Contents (Elt Ideal)) (b : (⟨S127, .f32⟩ : BufTy).Contents (Elt Ideal))
    (r : Fin 10000) (q : Fin 127) :
    val_main_v7 (F := Ideal) x adj W b (ix2 r q) = layerAt x adj W b r q := by
  have e1 : ∀ l : Fin 10000, lidx_main_v1 (ix2 r q) l = ix2 r l := fun l => funext fun a => Fin.ext (by
    match a with | ⟨0, _⟩ => rfl | ⟨1, _⟩ => rfl)
  have e2 : ∀ l : Fin 10000, ridx_main_v1 (ix2 r q) l = ix2 l q := fun l => funext fun a => Fin.ext (by
    match a with | ⟨0, _⟩ => rfl | ⟨1, _⟩ => rfl)
  have e3 : ∀ (l : Fin 10000) (k : Fin 128), lidx_main_v0 (ix2 l q) k = ix2 l k := fun l k => funext fun a => Fin.ext (by
    match a with | ⟨0, _⟩ => rfl | ⟨1, _⟩ => rfl)
  have e4 : ∀ (l : Fin 10000) (k : Fin 128), ridx_main_v0 (ix2 l q) k = ix2 k q := fun l k => funext fun a => Fin.ext (by
    match a with | ⟨0, _⟩ => rfl | ⟨1, _⟩ => rfl)
  have e5 : idx_main_v2 (idx_main_v3 (ix2 r q)) = ix1 q := funext fun a => Fin.ext (by
    match a with | ⟨0, _⟩ => rfl)
  have e6 : idx_main_v6 (ix2 r q) = ix2 r q.castSucc := funext fun a => Fin.ext (by
    match a with | ⟨0, _⟩ => rfl | ⟨1, _⟩ => rfl)
  rw [val_main_v7_apply, val_main_v5_apply, val_main_v4_apply, val_main_v1_apply, val_main_v3_apply, val_main_v2_apply,
    val_main_call0_v0_apply, val_main_call0_cst_apply, val_main_v6_apply]
  simp only [val_main_v0_apply, e1, e2, e3, e4, e5, e6]
  rfl

/-- So the reference's result array is the layer. -/
theorem ref_eq (x : (⟨S10000x128, .f32⟩ : BufTy).Contents (Elt Ideal)) (adj : (⟨S10000x10000, .f32⟩ : BufTy).Contents (Elt Ideal))
    (W : (⟨S128x127, .f32⟩ : BufTy).Contents (Elt Ideal)) (b : (⟨S127, .f32⟩ : BufTy).Contents (Elt Ideal)) :
    val_main_v7 (F := Ideal) x adj W b = layer x adj W b := by
  funext i
  obtain ⟨r, q, rfl⟩ : ∃ (r : Fin 10000) (q : Fin 127), i = ix2 r q := ⟨i 0, i 1, eq_ix2 i⟩
  rw [ref_apply, layer_ix2]

end Cert.ReferenceIdeal.Entry

end
-- ==== Proof.KernelPieces.lean ====
/-
  What one grid point leaves behind.

  The grid has 25 points; point t owns rows 400·t … 400·t + 399 of the result. The body keeps a copy of the feature
  matrix x in a scratch buffer that lives across the points: the first point fills it (with x narrowed to the
  half-precision format, which is the identity on exact values) and every later point finds it as the point before left
  it. Each point then stores ONE block: the body's arithmetic applied to its adjacency rows, the scratch copy, the padded
  weights, the padded bias and its own 400 rows of x (read from the resident x at row offset 400·t).

  So there are two cases. At the first point the scratch the arithmetic reads is the copy the point has just stored; at a
  later point it is the carried contents. Since a later point never stores into the scratch, the carried contents are the
  first point's copy at every point (induction on the point), and every point's block is the same function of the point's
  input blocks and that one copy.
-/
import proofs.«165720_g781684048050_cont_9to1c4b_217_11_alg».proof.Proof.Gen.KernelIdeal.Value
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Facts₀ Cert.KernelIdeal.Facts
open Idealize.ShloMosaic Idealize.ShloMosaic.TcCoe Idealize.SL.Sem Idealize.ShloMosaic.Tactic

variable {F : FTy → Type} [FloatOps F]

/-- The zero offsets of a whole-buffer load or store. -/
theorem hz : (![0, 0] : Fin 2 → Nat) = fun _ => 0 := funext fun a => by fin_cases a <;> rfl

/-- The point's own 400 rows of the resident feature matrix: rows `400·i` onwards, all 128 columns. -/
abbrev ownRows (i : grid0.Coords) (x1 : Vec F S10000x128 .f32) : Vec F S400x128 .f32 :=
  View.ld x1 (Rect.unit (s := S10000x128) (k0_off1 i) S400x128.size (Cert.KernelIdeal.Facts₀.k0_off1_inb i))

/-- A later point (the scratch holds `xs0`, carried): the block stored is the arithmetic of the input blocks, the
    carried scratch and the point's own rows. -/
theorem out_B (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S400x127 .f32) (h5 : a5.IsWhole) (a6 : Memref sig .tc .vmem S10000x128 .bf16) (h6 : a6.IsWhole) (hc : ¬cond0_0 i)
    (x0 : Vec F S400x10000 .f32) (x1 : Vec F S10000x128 .f32) (x2 : Vec F S128x128 .bf16) (x3 : Vec F S1x128 .f32) (xs0 : Vec F S10000x128 .bf16) :
    out0_B_4 c i a1 h1 a2 h2 a3 h3 a4 h4 a5 h5 a6 h6 hc x0 x1 x2 x3 xs0 = k0_pay2 x0 xs0 x2 x3 (ownRows i x1) := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero hz]
  simp only [View.readAt_eq_ld, h1.read_unread, h2.read_unread, h3.read_unread, h4.read_unread, h6.read_unread,
    View.ld_unit_zero (S := S400x10000) hz, View.ld_unit_zero (S := S10000x128) hz, View.ld_unit_zero (S := S128x128) hz,
    View.ld_unit_zero (S := S1x128) hz]

/-- The first point: the scratch the arithmetic reads is the copy of the feature matrix the point has just stored. -/
theorem out_A (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S400x127 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .bf16) (x3 : Vec F S1x128 .f32) :
    out0_A_4 c i a1 h1 a2 h2 a3 h3 a4 h4 a5 h5 a6 h6 hc x0 x1 x2 x3 = k0_pay2 x0 (k0_pay1 x1) x2 x3 (ownRows i x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz, View.readCov_unit_zero (S := S10000x128) _ hz]
  simp only [View.readAt_eq_ld, h1.read_unread, h2.read_unread, h3.read_unread, h4.read_unread,
    View.ld_unit_zero (S := S400x10000) hz, View.ld_unit_zero (S := S10000x128) hz, View.ld_unit_zero (S := S128x128) hz,
    View.ld_unit_zero (S := S1x128) hz]
  rfl

/-- The first point leaves the copy of the feature matrix in the scratch. -/
theorem sout_A (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .bf16) (h3 : a3.IsWhole) (a4 : Memref sig .tc .vmem S1x128 .f32) (h4 : a4.IsWhole) (a5 : Memref sig .tc .vmem S400x127 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .bf16) (x3 : Vec F S1x128 .f32) :
    sout0_A_0 c i a1 h1 a2 h2 a3 h3 a4 h4 a5 h5 a6 h6 hc x0 x1 x2 x3 = k0_pay1 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, View.ld_unit_zero (S := S10000x128) hz]

variable (m : (ℓ : Loc nD τ sig) → Buf (Elt F) ℓ)

/-- The grid's first point. -/
abbrev t0 : Fin cfg0.N := ⟨0, by rw [show cfg0.N = 25 from N_0]; decide⟩

/-- The copy of the feature matrix the first point stores: its block of x (the whole matrix), narrowed. -/
abbrev copy (c : Dev nD) : Vec F S10000x128 .bf16 := k0_pay1 (iblk m c 1 t0)

/-- At the first point the scratch ends at the copy of that point's block of x. -/
theorem scratch_A (c : Dev nD) (t : Fin cfg0.N) (h0 : t.val % 25 = 0) :
    (outsAt0 m c t.val t.isLt).2 = k0_pay1 (iblk m c 1 t) := by
  rw [outsAt0_A m c t h0]
  dsimp only
  exact sout_A c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (iblk m c 0 t) (iblk m c 1 t) (iblk m c 2 t) (iblk m c 3 t)

/-- At a later point the scratch ends as the point before left it. -/
theorem scratch_B (c : Dev nD) (t : Fin cfg0.N) (h0 : ¬t.val % 25 = 0) :
    (outsAt0 m c t.val t.isLt).2 = (outsAt0 m c (t.val - 1) (Nat.lt_of_le_of_lt (Nat.sub_le _ _) t.isLt)).2 := by
  rw [outsAt0_B m c t h0]
  dsimp only
  rfl

/-- After every point the scratch holds the first point's copy. -/
theorem scratch_eq (c : Dev nD) : ∀ (n : ℕ) (h : n < cfg0.N), (outsAt0 m c n h).2 = copy m c
  | 0, h => scratch_A m c ⟨0, h⟩ rfl
  | n + 1, h => by
    have hN : cfg0.N = 25 := N_0
    have hB : ¬(⟨n + 1, h⟩ : Fin cfg0.N).val % 25 = 0 := by dsimp only; omega
    exact (scratch_B m c ⟨n + 1, h⟩ hB).trans (scratch_eq c n (Nat.lt_of_succ_lt h))

/-- WHAT EVERY POINT STORES: the arithmetic of its adjacency rows, the first point's copy of the features, the padded
    weights, the padded bias, and its own 400 rows of the features. -/
theorem out_eq (c : Dev nD) (t : Fin cfg0.N) :
    (outsAt0 m c t.val t.isLt).1
      = k0_pay2 (iblk m c 0 t) (copy m c) (iblk m c 2 t) (iblk m c 3 t) (ownRows (grid0.coords t) (iblk m c 1 t)) := by
  by_cases h0 : t.val % 25 = 0
  · rw [← scratch_eq m c t.val t.isLt, scratch_A m c t h0, outsAt0_A m c t h0]
    dsimp only
    exact out_A c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (iblk m c 0 t) (iblk m c 1 t) (iblk m c 2 t) (iblk m c 3 t)
  · rw [← scratch_eq m c (t.val - 1) (Nat.lt_of_le_of_lt (Nat.sub_le _ _) t.isLt), outsAt0_B m c t h0]
    dsimp only
    exact out_B c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2

end Cert.KernelIdeal.Pieces

end
-- ==== Proof.KernelBlocks.lean ====
/-
  The point's input blocks, read at an index.

  Point t of the 25 reads: rows 400·t … 400·t + 399 of the adjacency (all 10000 columns); the whole feature matrix; the
  whole padded weight matrix; the whole padded bias row; and, out of the resident feature matrix, its own rows
  400·t … 400·t + 399. The padded weights are the weights with a 128th column of zeros appended (and narrowed, which is
  the identity on exact values), so at a column q < 127 they read the weights; the padded bias is the bias with a 128th
  zero appended and laid as a 1 × 128 row, so at (0, q) with q < 127 it reads the bias. The copy of the features the first
  point makes is the features themselves.
-/
import proofs.«165720_g781684048050_cont_9to1c4b_217_11_alg».proof.Proof.KernelPieces
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.KernelIdeal.Blocks

open Cert.KernelIdeal Cert.KernelIdeal.Gen Cert.KernelIdeal.Pieces
open Idealize.ShloMosaic Idealize.ShloMosaic.TcCoe Idealize.SL.Sem Idealize.ShloMosaic.ValueIdx Idealize.ShloMosaic.StableHlo

/-- Where each window's block sits, decided over the 25 points: the adjacency and the result move one block of rows per
    point, the other three windows stay on their one block, and the point's grid coordinate is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t (0 : Fin 1)).val = t.val :=
  (by decide +kernel : ∀ t : Fin grid0.N, _)

section AnyValues
variable {F : FTy → Type} [FloatOps F]
variable (m : (ℓ : Loc nD τ sig) → Buf (Elt F) ℓ)

/-- The adjacency block at point t, row p, column l: the adjacency at row 400·t + p. -/
theorem adjBlk (c : Dev nD) (t : Fin cfg0.N) (p : Fin 400) (l : Fin 10000) (r : Fin 10000) (hr : r.val = 400 * t.val + p.val) :
    (iblk m c 0 t : Vec F S400x10000 .f32) (ix2 p l) = m ((c : Thread nD τ).loc main_arg1) (ix2 r l) := by
  obtain ⟨e00, e01, -⟩ := idx_facts t
  show V m c main_arg1 (((cfg0.win 0).blk t).view.emb (ix2 p l)) = _
  rw [V_main_arg1]
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * l.val = l.val; omega

/-- The feature block at any point is the whole feature matrix. -/
theorem xBlk (c : Dev nD) (t : Fin cfg0.N) (l : Fin 10000) (k : Fin 128) :
    (iblk m c 1 t : Vec F S10000x128 .f32) (ix2 l k) = m ((c : Thread nD τ).loc main_arg0) (ix2 l k) := by
  obtain ⟨-, -, e10, e11, -⟩ := idx_facts t
  show V m c main_arg0 (((cfg0.win 1).blk t).view.emb (ix2 l k)) = _
  rw [V_main_arg0]
  refine congrArg _ (funext fun a => Fin.ext ?_)
  match a with
  | ⟨0, _⟩ => show win0_1.index t (0 : Fin 2) * 10000 + 1 * l.val = l.val; omega
  | ⟨1, _⟩ => show win0_1.index t (1 : Fin 2) * 128 + 1 * k.val = k.val; omega

/-- The point's own rows, read out of the resident features at row offset 400·t: the features at row 400·t + p. -/
theorem ownBlk (c : Dev nD) (t : Fin cfg0.N) (p : Fin 400) (j : Fin 128) (r : Fin 10000) (hr : r.val = 400 * t.val + p.val) :
    ownRows (grid0.coords t) (iblk m c 1 t : Vec F S10000x128 .f32) (ix2 p j) = m ((c : Thread nD τ).loc main_arg0) (ix2 r j) := by
  obtain ⟨-, -, -, -, -, -, -, -, -, -, eg⟩ := idx_facts t
  have hoff := k0_off1_eq (grid0.coords t)
  show (iblk m c 1 t : Vec F S10000x128 .f32) ((Rect.unit (s := S10000x128) (k0_off1 (grid0.coords t)) S400x128.size (Cert.KernelIdeal.Facts₀.k0_off1_inb (grid0.coords t))).idx (ix2 p j)) = _
  have hi : (Rect.unit (s := S10000x128) (k0_off1 (grid0.coords t)) S400x128.size (Cert.KernelIdeal.Facts₀.k0_off1_inb (grid0.coords t))).idx (ix2 p j) = ix2 r j :=
    funext fun a => Fin.ext (by
      match a with
      | ⟨0, _⟩ => show k0_off1 (grid0.coords t) 0 + 1 * p.val = r.val; rw [hoff]; show 400 * (grid0.coords t 0).val + 1 * p.val = r.val; omega
      | ⟨1, _⟩ => show k0_off1 (grid0.coords t) 1 + 1 * j.val = j.val; rw [hoff]; show 0 + 1 * j.val = j.val; omega)
  rw [hi]
  exact xBlk m c t r j

end AnyValues

section IdealValues
variable (m : (ℓ : Loc nD τ sig) → Buf (Elt Ideal) ℓ)

/-- What the region finds in the padded, narrowed weights: @main's operations on the weights. -/
theorem V_w (c : Dev nD) : (V m c main_v1 : S128x128.Idx → EReal)
    = truncf .bf16 (pad S128x128 ![0, 0] ![0, 1] ![0, 0] (m ((c : Thread nD τ).loc main_arg2))
        (sitofp (F := Ideal) .f32 (constantI S_ 32 0#32)) pads_S128x127_S128x128_000_010 h_S_) bitsLt_bf16_f32 := by
  dsimp only [V]
  simp only [hostOps0, hostOps0_1, hostOps0_2, hostOps0_3, hostOps0_4, List.flatten_cons, List.flatten_nil, List.append_nil,
    List.cons_append, List.nil_append]
  after_results
  rfl

/-- What the region finds in the padded bias row: @main's operations on the bias. -/
theorem V_b (c : Dev nD) : (V m c main_v3 : S1x128.Idx → EReal)
    = shapeCast S1x128 (pad S128 ![0] ![1] ![0] (m ((c : Thread nD τ).loc main_arg3))
        (sitofp (F := Ideal) .f32 (constantI S_ 32 0#32)) pads_S127_S128_010 h_S_) shapeCasts_S128_S1x128 := by
  dsimp only [V]
  simp only [hostOps0, hostOps0_1, hostOps0_2, hostOps0_3, hostOps0_4, List.flatten_cons, List.flatten_nil, List.append_nil,
    List.cons_append, List.nil_append]
  after_results
  rfl

/-- The weight block at (k, q), q < 127: the weights at (k, q). -/
theorem wBlk (c : Dev nD) (t : Fin cfg0.N) (k : Fin 128) (q : Fin 127) :
    (iblk m c 2 t : Vec Ideal S128x128 .bf16) (ix2 k q.castSucc) = m ((c : Thread nD τ).loc main_arg2) (ix2 k q) := by
  obtain ⟨-, -, -, -, e20, e21, -⟩ := idx_facts t
  show (V m c main_v1 : S128x128.Idx → EReal) (((cfg0.win 2).blk t).view.emb (ix2 k q.castSucc)) = _
  rw [V_w]
  refine (pad_apply_of_inside ![0, 0] ![0, 1] ![0, 0] _ _ pads_S128x127_S128x128_000_010 h_S_ _ (ix2 k q) fun a => ?_)
  match a with
  | ⟨0, _⟩ => show win0_2.index t (0 : Fin 2) * 128 + 1 * k.val = 0 + k.val * (0 + 1); omega
  | ⟨1, _⟩ => show win0_2.index t (1 : Fin 2) * 128 + 1 * q.val = 0 + q.val * (0 + 1); omega

/-- The bias block at (0, q), q < 127: the bias at q. -/
theorem bBlk (c : Dev nD) (t : Fin cfg0.N) (q : Fin 127) :
    (iblk m c 3 t : Vec Ideal S1x128 .f32) (ix2 (0 : Fin 1) q.castSucc) = m ((c : Thread nD τ).loc main_arg3) (ix1 q) := by
  obtain ⟨-, -, -, -, -, -, e30, e31, -⟩ := idx_facts t
  show (V m c main_v3 : S1x128.Idx → EReal) (((cfg0.win 3).blk t).view.emb (ix2 (0 : Fin 1) q.castSucc)) = _
  rw [V_b]
  refine (shapeCast_apply _ shapeCasts_S128_S1x128 _ (ix1 q.castSucc) ?_).trans ?_
  · rw [Shape.rowMajor_val_one, Shape.rowMajor_val_two]
    show q.val = (win0_3.index t (0 : Fin 2) * 1 + 1 * 0) * 128 + (win0_3.index t (1 : Fin 2) * 128 + 1 * q.val)
    omega
  · refine (pad_apply_of_inside ![0] ![1] ![0] _ _ pads_S127_S128_010 h_S_ _ (ix1 q) fun a => ?_)
    match a with
    | ⟨0, _⟩ => show q.val = 0 + q.val * (0 + 1); omega

/-- The first point's copy of the features is the features. -/
theorem copy_apply (c : Dev nD) (l : Fin 10000) (k : Fin 128) :
    copy m c (ix2 l k) = m ((c : Thread nD τ).loc main_arg0) (ix2 l k) := by
  show k0_pay1 (F := Ideal) (iblk m c 1 t0) (ix2 l k) = _
  unfold k0_pay1
  rw [shapeCast_self]
  exact xBlk m c t0 l k

end IdealValues

end Cert.KernelIdeal.Blocks

end
-- ==== Proof.KernelEntry.lean ====
/-
  One entry of the block a point stores, on the extended reals.

  The body's arithmetic, read at row p (of the point's 400) and column q < 127:

      max ( Σ_k ( Σ_l A[p, l] · C[l, k] ) · Wp[k, q] + Bp[0, q] , 0 ) + R[p, q]

  where A is the point's 400 × 10000 block of the adjacency, C the 10000 × 128 copy of the features, Wp the 128 × 128
  padded weights, Bp the 1 × 128 padded bias and R the point's own 400 rows of the features. The two products are
  contractions into a zero accumulator, so each is the plain sum over its contracted axis; a change of float format is the
  identity on exact values; the bias row is repeated down the 400 rows; the last column (q = 127) is cut off.
-/
import proofs.«165720_g781684048050_cont_9to1c4b_217_11_alg».proof.Proof.Gen.KernelIdeal.Skeleton
import Idealize.ShloMosaic.Lib.ValueIdx
import Idealize.ShloMosaic.Lib.Pipeline.Value
import Idealize.ShloMosaic.PureOps.Ideal.Laws
import proofs.«165720_g781684048050_cont_9to1c4b_217_11_alg».proof.Proof.Spec

noncomputable section

namespace Cert.KernelIdeal.Entry

open Cert.KernelIdeal Cert.KernelIdeal.Gen
open Idealize.ShloMosaic Idealize.ShloMosaic.ValueIdx Cert.GcnSpec

/-- The contraction over the 10000 nodes into a zero accumulator, at (p, k): Σ_l a[p, l] · x[l, k]. -/
theorem nodes_apply (a : FVec Ideal S400x10000 .bf16) (xs : FVec Ideal S10000x128 .bf16) (p : Fin 400) (k : Fin 128) :
    matmul dot_S400x10000_S10000x128_S400x128_1_0_0_1_n_n none a xs (constant (F := Ideal) S400x128 .f32 0x00000000#32) (ix2 p k)
      = ∑ l : Fin 10000, a (ix2 p l) * xs (ix2 l k) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hl := contrEquiv1_symm_val dot_S400x10000_S10000x128_S400x128_1_0_0_1_n_n 10000 rfl rfl l
  have el : dot_S400x10000_S10000x128_S400x128_1_0_0_1_n_n.lhsIdx (ix2 p k) ((contrEquiv1 dot_S400x10000_S10000x128_S400x128_1_0_0_1_n_n 10000 rfl rfl).symm l) = ix2 p l := funext fun d => Fin.ext (by
    match d with
    | ⟨0, _⟩ =>
      show (dot_S400x10000_S10000x128_S400x128_1_0_0_1_n_n.lhsIdx (ix2 p k) _ 0).val = p.val
      unfold DotDims.lhsIdx
      rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
      rfl
    | ⟨1, _⟩ => exact (dot_S400x10000_S10000x128_S400x128_1_0_0_1_n_n.lhsIdx_val_of_single rfl _ _).trans hl)
  have er : dot_S400x10000_S10000x128_S400x128_1_0_0_1_n_n.rhsIdx (ix2 p k) ((contrEquiv1 dot_S400x10000_S10000x128_S400x128_1_0_0_1_n_n 10000 rfl rfl).symm l) = ix2 l k := funext fun d => Fin.ext (by
    match d with
    | ⟨0, _⟩ => exact (dot_S400x10000_S10000x128_S400x128_1_0_0_1_n_n.rhsIdx_val_of_single rfl _ _).trans hl
    | ⟨1, _⟩ =>
      show (dot_S400x10000_S10000x128_S400x128_1_0_0_1_n_n.rhsIdx (ix2 p k) _ 1).val = k.val
      unfold DotDims.rhsIdx
      rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
      rfl)
  rw [el, er]

/-- The contraction over the 128 input features into a zero accumulator, at (p, j): Σ_k h[p, k] · w[k, j]. -/
theorem feats_apply (h : FVec Ideal S400x128 .bf16) (w : FVec Ideal S128x128 .bf16) (p : Fin 400) (j : Fin 128) :
    matmul dot_S400x128_S128x128_S400x128_1_0_0_1_n_n none h w (constant (F := Ideal) S400x128 .f32 0x00000000#32) (ix2 p j)
      = ∑ k : Fin 128, h (ix2 p k) * w (ix2 k j) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p j) ((contrEquiv1 dot_S400x128_S128x128_S400x128_1_0_0_1_n_n 128 rfl rfl).symm k) = ix2 p k := funext fun d => Fin.ext (by
    match d with
    | ⟨0, _⟩ =>
      show (dot_S400x128_S128x128_S400x128_1_0_0_1_n_n.lhsIdx (ix2 p j) _ 0).val = p.val
      unfold DotDims.lhsIdx
      rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
      rfl
    | ⟨1, _⟩ => exact (dot_S400x128_S128x128_S400x128_1_0_0_1_n_n.lhsIdx_val_of_single rfl _ _).trans hk)
  have er : dot_S400x128_S128x128_S400x128_1_0_0_1_n_n.rhsIdx (ix2 p j) ((contrEquiv1 dot_S400x128_S128x128_S400x128_1_0_0_1_n_n 128 rfl rfl).symm k) = ix2 k j := funext fun d => Fin.ext (by
    match d with
    | ⟨0, _⟩ => exact (dot_S400x128_S128x128_S400x128_1_0_0_1_n_n.rhsIdx_val_of_single rfl _ _).trans hk
    | ⟨1, _⟩ =>
      show (dot_S400x128_S128x128_S400x128_1_0_0_1_n_n.rhsIdx (ix2 p j) _ 1).val = j.val
      unfold DotDims.rhsIdx
      rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
      rfl)
  rw [el, er]

/-- The 1 × 128 bias row repeated down 400 rows, at (p, j): the row's entry j. -/
theorem biasRow_apply (x3 : FVec Ideal S1x128 .f32) (p : Fin 400) (j : Fin 128) :
    broadcastTo S400x128 x3 broadcasts_S1x128_S400x128 (ix2 p j) = x3 (ix2 (0 : Fin 1) j) :=
  broadcastTo_apply x3 broadcasts_S1x128_S400x128 (ix2 p j) (ix2 (0 : Fin 1) j) fun a => by
    match a with
    | ⟨0, _⟩ => rfl
    | ⟨1, _⟩ => rfl

/-- THE ENTRY: the block a point stores, at row p and column q < 127. -/
theorem pay2_apply (x0 : Vec Ideal S400x10000 .f32) (xs : Vec Ideal S10000x128 .bf16) (x2 : Vec Ideal S128x128 .bf16)
    (x3 : Vec Ideal S1x128 .f32) (x19 : Vec Ideal S400x128 .f32) (p : Fin 400) (q : Fin 127) :
    k0_pay2 (F := Ideal) x0 xs x2 x3 x19 (ix2 p q)
      = max ((∑ k : Fin 128, (∑ l : Fin 10000, x0 (ix2 p l) * xs (ix2 l k)) * x2 (ix2 k q.castSucc))
            + x3 (ix2 (0 : Fin 1) q.castSucc)) (Ideal.ofBits .f32 0x00000000#32)
          + x19 (ix2 p q.castSucc) := by
  unfold k0_pay2
  refine (extractStridedSlice_apply ![0, 0] _ slices_S400x128_o0_0_S400x127 (ix2 p q) (ix2 p q.castSucc) fun a => ?_).trans ?_
  · match a with
    | ⟨0, _⟩ => show p.val = 0 + p.val; omega
    | ⟨1, _⟩ => show q.val = 0 + q.val; omega
  simp only [addf_apply, maximumf_apply, broadcast_apply, shapeCast_self, biasRow_apply, feats_apply, truncf_apply, nodes_apply]
  rfl

/-- So, when the blocks read the argument arrays as they should — the adjacency rows of node `r`, the features, the
    weights' column `q`, the bias at `q`, the features' row `r` —, the stored entry is the layer's entry at (r, q), the
    neighbours aggregated first. -/
theorem entry_eq (x0 : Vec Ideal S400x10000 .f32) (xs : Vec Ideal S10000x128 .bf16) (x2 : Vec Ideal S128x128 .bf16)
    (x3 : Vec Ideal S1x128 .f32) (x19 : Vec Ideal S400x128 .f32)
    (x : SX.Idx → EReal) (adj : SA.Idx → EReal) (W : SW.Idx → EReal) (b : SB.Idx → EReal)
    (y : S400x127.Idx) (p : Fin 400) (q : Fin 127) (r : Fin 10000) (hy : y = ix2 p q)
    (h0 : ∀ l : Fin 10000, x0 (ix2 p l) = adj (ix2 r l))
    (hs : ∀ (l : Fin 10000) (k : Fin 128), xs (ix2 l k) = x (ix2 l k))
    (h2 : ∀ k : Fin 128, x2 (ix2 k q.castSucc) = W (ix2 k q))
    (h3 : x3 (ix2 (0 : Fin 1) q.castSucc) = b (ix1 q))
    (h19 : x19 (ix2 p q.castSucc) = x (ix2 r q.castSucc)) :
    k0_pay2 (F := Ideal) x0 xs x2 x3 x19 y = layerAt' x adj W b r q := by
  subst hy
  rw [pay2_apply]
  unfold layerAt'
  simp only [h0, hs, h2, h3, h19]

end Cert.KernelIdeal.Entry

end
-- ==== Proof.KernelLayer.lean ====
/-
  The result array is the layer.

  Point t writes back one 400 × 127 block, and that block is rows 400·t … 400·t + 399 of the layer of the four argument
  arrays: entry (p, q) of what the point stores is the body's arithmetic of the point's input blocks, each block reads the
  argument arrays where the layer's entry (400·t + p, q) needs them, and for real entries aggregating the neighbours first
  (as the body does) or projecting the features first (as the layer is written) gives the same number. The 25 blocks tile
  the 10000 rows — row r lies in the block of point r / 400 —, so after the run the whole array is the layer.
-/
import proofs.«165720_g781684048050_cont_9to1c4b_217_11_alg».proof.Proof.KernelBlocks
import proofs.«165720_g781684048050_cont_9to1c4b_217_11_alg».proof.Proof.KernelEntry
import proofs.«165720_g781684048050_cont_9to1c4b_217_11_alg».proof.Proof.Spec

set_option maxRecDepth 16384

noncomputable section

namespace Cert.KernelIdeal.Layer

open Cert.KernelIdeal Cert.KernelIdeal.Gen Cert.KernelIdeal.Pieces Cert.KernelIdeal.Blocks Cert.KernelIdeal.Entry
open Idealize.ShloMosaic Idealize.ShloMosaic.TcCoe Idealize.SL.Sem Idealize.ShloMosaic.ValueIdx
open Idealize.ShloMosaic.Pipeline (Dat)
open Cert.GcnSpec Cert.LibRealArith

variable (m : (ℓ : Loc nD τ sig) → Buf (Elt Ideal) ℓ) (ρ : Dev nD → PrngReg)

/-- The four argument arrays on core `c`: features, adjacency, weights, bias. -/
abbrev argX (c : Dev nD) : SX.Idx → EReal := m ((c : Thread nD τ).loc main_arg0)
abbrev argA (c : Dev nD) : SA.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)

/-- THE RESULT: the layer of the argument arrays. -/
abbrev result (c : Dev nD) : S10000x127.Idx → EReal := layer (argX m c) (argA m c) (argW m c) (argB m c)

/-- Entry `y` of the block point `t` stores is the layer at the array index under it. -/
theorem stored_apply (c : Dev nD) (hx : AllReal (argX m c)) (ha : AllReal (argA m c)) (hw : AllReal (argW m c))
    (t : Fin cfg0.N) (y : S400x127.Idx) :
    k0_pay2 (F := Ideal) (iblk m c 0 t) (copy m c) (iblk m c 2 t) (iblk m c 3 t) (ownRows (grid0.coords t) (iblk m c 1 t)) y
      = result m c (((cfg0.win 4).blk t).view.emb y) := by
  obtain ⟨-, -, -, -, -, -, -, -, e40, e41, -⟩ := idx_facts t
  have hN : cfg0.N = 25 := N_0
  have ht := t.isLt
  have hy0 : (y 0).val < 400 := (y 0).isLt
  have hy1 : (y 1).val < 127 := (y 1).isLt
  have hr : 400 * t.val + (y 0).val < 10000 := by omega
  have hy : y = ix2 (⟨(y 0).val, hy0⟩ : Fin 400) (⟨(y 1).val, hy1⟩ : Fin 127) := funext fun a => by
    match a with
    | ⟨0, _⟩ => rfl
    | ⟨1, _⟩ => rfl
  refine (entry_eq (iblk m c 0 t) (copy m c) (iblk m c 2 t) (iblk m c 3 t) (ownRows (grid0.coords t) (iblk m c 1 t))
    (argX m c) (argA m c) (argW m c) (argB m c) y ⟨(y 0).val, hy0⟩ ⟨(y 1).val, hy1⟩ ⟨400 * t.val + (y 0).val, hr⟩ hy
    (fun l => adjBlk m c t ⟨(y 0).val, hy0⟩ l ⟨400 * t.val + (y 0).val, hr⟩ rfl)
    (fun l k => copy_apply m c l k)
    (fun k => wBlk m c t k ⟨(y 1).val, hy1⟩)
    (bBlk m c t ⟨(y 1).val, hy1⟩)
    (ownBlk m c t ⟨(y 0).val, hy0⟩ (Fin.castSucc ⟨(y 1).val, hy1⟩) ⟨400 * t.val + (y 0).val, hr⟩ rfl)).trans
    ((layerAt'_eq (argB m c) hx ha hw ⟨400 * t.val + (y 0).val, hr⟩ ⟨(y 1).val, hy1⟩).trans ?_)
  show layerAt (argX m c) (argA m c) (argW m c) (argB m c) ⟨400 * t.val + (y 0).val, hr⟩ ⟨(y 1).val, hy1⟩
    = layerAt (argX m c) (argA m c) (argW m c) (argB m c)
        ⟨((((cfg0.win 4).blk t).view.emb y) 0).val, ((((cfg0.win 4).blk t).view.emb y) 0).isLt⟩
        ⟨((((cfg0.win 4).blk t).view.emb y) 1).val, ((((cfg0.win 4).blk t).view.emb y) 1).isLt⟩
  congr 1 <;> apply Fin.ext
  · show 400 * t.val + (y 0).val = win0_4.index t (0 : Fin 2) * 400 + 1 * (y 0).val
    omega
  · show (y 1).val = win0_4.index t (1 : Fin 2) * 127 + 1 * (y 1).val
    omega

/-- WHAT POINT `t` WRITES BACK is its block of the layer. -/
theorem flushed_eq (c : Dev nD) (hx : AllReal (argX m c)) (ha : AllReal (argA m c)) (hw : AllReal (argW m c))
    (t : Fin cfg0.N) :
    (dats m 0 c).flushed 4 t = ((cfg0.win 4).blk t).view.read (Elt Ideal) (result m c) := by
  rw [Cert.KernelIdeal.Value.flushed4, out_eq]
  funext y
  exact stored_apply m c hx ha hw t y

/-- An index of the result array is in point `t`'s block iff each coordinate is in the block's range on its axis. -/
theorem mem_blk (t : Fin cfg0.N) (i : S10000x127.Idx) :
    i ∈ ((cfg0.win 4).blk t).view.set
      ↔ ∀ a : Fin 2, win0_4.index t a * S400x127.size a ≤ (i a).val ∧ (i a).val < win0_4.index t a * S400x127.size a + S400x127.size a := by
  show i ∈ ((View.whole main_v4).slice (win0_4.rect t)).set ↔ _
  rw [View.set_slice_whole, Rect.mem_set_unit]
  exact Iff.rfl

/-- Every index of the result array is in the block of the point its row falls in: row r in point r / 400. -/
theorem cover (i : S10000x127.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 127 := (i 1).isLt
  obtain ⟨t, ht⟩ : ∃ t : Fin cfg0.N, t.val = (i 0).val / 400 := ⟨⟨(i 0).val / 400, by omega⟩, rfl⟩
  obtain ⟨-, -, -, -, -, -, -, -, e40, e41, -⟩ := idx_facts t
  refine ⟨t, flush0_4 t, ?_⟩
  rw [mem_blk]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 127 ≤ (i 1).val ∧ (i 1).val < win0_4.index t (1 : Fin 2) * 127 + 127
    omega

/-- THE ARRAY after the run is the layer. -/
theorem final (c : Dev nD) (hx : AllReal (argX m c)) (ha : AllReal (argA m c)) (hw : AllReal (argW m c)) :
    (dats m 0 c).arrAt 4 cfg0.N = result m c :=
  (dats m 0 c).arrAt_eq_of_cover 4 (result m c) (fun t _ => flushed_eq m c hx ha hw t) cover

/-- The run, read: when the features, the adjacency and the weights have real entries, the result array ends at the
    layer of the argument arrays, which end unchanged. -/
theorem run (hreal : ∀ c : Dev nD, AllReal (argX m c) ∧ AllReal (argA m c) ∧ AllReal (argW m c)) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hreal c).1 (hreal c).2.1 (hreal c).2.2), (h c).2⟩)
    (Cert.KernelIdeal.Value.run_blocks m ρ)

end Cert.KernelIdeal.Layer

end
-- ==== Proof.lean ====
/-
  A graph-convolution layer, relu(adj · (x · W) + b) + x without its last column, computed two ways.

  The reference multiplies the features by the weights first and the adjacency by that product second. The kernel walks
  the 10000 rows of the adjacency in 25 blocks of 400 rows; for each block it multiplies the block by the whole feature
  matrix first (kept in a scratch copy made at the first block) and the product by the weights second, adds the bias,
  clamps at zero, adds its own 400 rows of the features and writes 127 of the 128 columns back. Weights and bias reach the
  kernel padded with a zero column, which the last step cuts off again.

  At the ideal values — every float an extended real, every operation exact, a change of float format the identity — both
  compute, at node r and output feature q,

      max ( Σ over the neighbours and the input features of adj[r, l] · x[l, k] · W[k, q] + b[q] , 0 ) + x[r, q],

  the double sum grouped one way by the kernel and the other way by the reference. The two groupings agree for real
  numbers (the associativity of the matrix product) and not at the infinities, so this is where the precondition — every
  input entry finite — is used: it makes every entry a real number.

  The pieces: the law on real entries (Algebra), the precondition read as "every entry is real" (Finite), the layer entry
  by entry (Spec), the reference read at an entry (RefEntry), what each grid point stores (KernelPieces), that block at an
  entry (KernelEntry), the point's input blocks at an entry (KernelBlocks), and the blocks assembled into the result array
  (KernelLayer). Here the five claims are put together.
-/
import proofs.«165720_g781684048050_cont_9to1c4b_217_11_alg».proof.Defs
import proofs.«165720_g781684048050_cont_9to1c4b_217_11_alg».proof.Proof.Gen.Kernel
import proofs.«165720_g781684048050_cont_9to1c4b_217_11_alg».proof.Proof.Gen.Kernel.Skeleton
import proofs.«165720_g781684048050_cont_9to1c4b_217_11_alg».proof.Proof.Gen.Kernel.Launch
import proofs.«165720_g781684048050_cont_9to1c4b_217_11_alg».proof.Proof.Gen.Kernel.Points
import proofs.«165720_g781684048050_cont_9to1c4b_217_11_alg».proof.Proof.Gen.Kernel.Frame
import proofs.«165720_g781684048050_cont_9to1c4b_217_11_alg».proof.Proof.Gen.KernelIdeal
import proofs.«165720_g781684048050_cont_9to1c4b_217_11_alg».proof.Proof.Gen.KernelIdeal.Skeleton
import proofs.«165720_g781684048050_cont_9to1c4b_217_11_alg».proof.Proof.Gen.KernelIdeal.Launch
import proofs.«165720_g781684048050_cont_9to1c4b_217_11_alg».proof.Proof.Gen.KernelIdeal.Points
import proofs.«165720_g781684048050_cont_9to1c4b_217_11_alg».proof.Proof.Gen.KernelIdeal.Frame
import proofs.«165720_g781684048050_cont_9to1c4b_217_11_alg».proof.Proof.Gen.ReferenceIdeal
import proofs.«165720_g781684048050_cont_9to1c4b_217_11_alg».proof.Proof.Gen.Pre_finite_inputs
import proofs.«165720_g781684048050_cont_9to1c4b_217_11_alg».proof.Proof.Gen.KernelIdeal.Value
import proofs.«165720_g781684048050_cont_9to1c4b_217_11_alg».proof.Proof.Gen.ReferenceIdeal.Run
import proofs.«165720_g781684048050_cont_9to1c4b_217_11_alg».proof.Proof.Gen.ReferenceIdeal.Read
import proofs.«165720_g781684048050_cont_9to1c4b_217_11_alg».proof.Proof.Finite
import proofs.«165720_g781684048050_cont_9to1c4b_217_11_alg».proof.Proof.RefEntry
import proofs.«165720_g781684048050_cont_9to1c4b_217_11_alg».proof.Proof.KernelLayer
import Idealize.ShloMosaic.Adequacy
import Idealize.ShloMosaic.Init

noncomputable section

namespace Cert.Proof

open Idealize.ShloMosaic Idealize.SL.Sem

/-- The kernel as printed runs, faults nowhere and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the ideal values rewrote no operation. -/
theorem preserves : Cert.preserves_Kernel_KernelIdeal := trivial

/-- From memories that agree on the four inputs, all finite, both programs end with the layer of those inputs in their
    result arrays: the kernel's 25 blocks tile it, the reference's operations compose to it. -/
theorem algebraic : Cert.algebraic_KernelIdeal_ReferenceIdeal := by
  intro m ρ m' ρ' hpre hagree
  have hreal : ∀ c : Dev Cert.KernelIdeal.nD,
      Cert.LibRealArith.AllReal (Cert.KernelIdeal.Layer.argX m c) ∧ Cert.LibRealArith.AllReal (Cert.KernelIdeal.Layer.argA m c)
        ∧ Cert.LibRealArith.AllReal (Cert.KernelIdeal.Layer.argW m c) := fun c => by
    obtain ⟨hx, ha, hw, -⟩ := Cert.FiniteInputs.allReal_of_pre _ _ _ _ (hpre c)
    exact ⟨hx, ha, hw⟩
  refine ⟨fun c => Cert.KernelIdeal.Layer.result m c, Cert.KernelIdeal.Layer.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Entry.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
